-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S128 .f32) (main_arg7 : FVec F S128x16 .f32) (main_arg8 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x16 .f32) (main_arg8 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x16 : Shape := ⟨2, ![1, 16]⟩
abbrev S50000x16 : Shape := ⟨2, ![50000, 16]⟩
abbrev S5000x16 : Shape := ⟨2, ![5000, 16]⟩

abbrev nBuf : Space → Nat
  | .hbm => 87
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S128x128, .bf16⟩
  | .hbm, ⟨44, _⟩ => ⟨S1x128, .f32⟩
  | .hbm, ⟨45, _⟩ => ⟨S50000x1, .f32⟩
  | .hbm, ⟨46, _⟩ => ⟨S50000x128, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S128x128, .bf16⟩
  | .hbm, ⟨64, _⟩ => ⟨S1x128, .f32⟩
  | .hbm, ⟨65, _⟩ => ⟨S50000x1, .f32⟩
  | .hbm, ⟨66, _⟩ => ⟨S50000x128, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S128x16, .bf16⟩
  | .hbm, ⟨84, _⟩ => ⟨S1x16, .f32⟩
  | .hbm, ⟨85, _⟩ => ⟨S50000x1, .f32⟩
  | .hbm, ⟨86, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .bf16⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .bf16⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x16, .bf16⟩
  | .local _ .vmem, ⟨21, _⟩ => ⟨S1x16, .f32⟩
  | .local _ .vmem, ⟨22, _⟩ => ⟨S5000x16, .f32⟩
  | .local _ .vmem, ⟨23, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x16 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bitsLt_bf16_f32 : FTy.bits .bf16 < FTy.bits .f32
  shapeCasts_S128_S1x128 : S128.ShapeCasts S1x128
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S16_S1x16 : S16.ShapeCasts S1x16
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x16.size a ≤ S128x16.size a
  hwx2_2 : ∀ i : grid2.Coords, EltTy.bits .bf16 = 32 ∨ (Rect.block (s := S128x16) S128x16.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S50000x16.size a
  hwx2_4 : ∀ i : grid2.Coords, EltTy.bits .f32 = 32 ∨ (Rect.block (s := S50000x16) S5000x16.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S128x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x16 : Shape := ⟨2, ![50000, 16]⟩
abbrev S1x16 : Shape := ⟨2, ![1, 16]⟩

abbrev nBuf : Space → Nat
  | .hbm => 102
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S_, .f32⟩
  | .hbm, ⟨92, _⟩ => ⟨S50000x128, .f32⟩
  | .hbm, ⟨93, _⟩ => ⟨S800000x1, .i32⟩
  | .hbm, ⟨94, _⟩ => ⟨S50000x128, .f32⟩
  | .hbm, ⟨95, _⟩ => ⟨S50000x1, .f32⟩
  | .hbm, ⟨96, _⟩ => ⟨S50000x128, .f32⟩
  | .hbm, ⟨97, _⟩ => ⟨S50000x128, .f32⟩
  | .hbm, ⟨98, _⟩ => ⟨S50000x16, .f32⟩
  | .hbm, ⟨99, _⟩ => ⟨S1x16, .f32⟩
  | .hbm, ⟨100, _⟩ => ⟨S50000x16, .f32⟩
  | .hbm, ⟨101, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_v58 : Ref sig .tc := ⟨.hbm, 83, rfl⟩
abbrev main_v59 : Ref sig .tc := ⟨.hbm, 84, rfl⟩
abbrev main_c_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.KernelRun.lean ====
/-
  The idealized kernel's run with its result named. The program is three launches of the dense-layer kernel among
  stretches of host operations; the buffer contents at each boundary are a fold through the program (`W0` the launch
  memory, `W1` after the first stretch, `W2` after the first launch's write-backs, … `W6` at the return). Every
  weakly fair execution terminates with EVERY unscoped buffer at `W6`'s contents: read at the result buffer this names
  the result, and read at the argument buffers it walks back to the launch memory.
-/
import proofs.«149280_j56581899158114_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over the six segments, the last thread state read against the final state at the result buffer as well
    as at the arguments: the result ends at the last boundary's contents `W6`. -/
theorem run_value : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v63 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunValue

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«149280_j56581899158114_1_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.Layer.lean ====
/-
  One dense layer of a graph convolution, entry by entry on the extended reals. The rows of the aggregated features
  are scaled by a per-row number (the inverse square root of the in-degree), multiplied by the weight matrix, shifted by
  the bias row and, in the hidden layers, clipped below at zero:
      out (p, q) = max ( (∑ i, (A (p, i) · s p) · w (i, q)) + b q , 0 ).
  The kernel computes this on a block of rows with the matrix unit (the scaled rows rounded to bf16, which changes
  nothing at the exact values), the reference on the whole array with the host's matrix product; both read, at an
  entry, as the same sum over the contraction index.
-/
import proofs.«149280_j56581899158114_1_alg».proof.Proof.LibRows
import proofs.«149280_j56581899158114_1_alg».proof.Proof.LibCols
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.Layer

open Idealize.ShloMosaic Idealize.ShloMosaic.ValueIdx

/-- The zero every clip compares against: the word of `0.0`, never evaluated. -/
abbrev zero : EReal := Ideal.ofBits .f32 0x00000000#32

/-- The affine layer: row `p` of `A` scaled by `s p`, times `w`, plus the bias entry. -/
def denseLin {M K N : Nat} (A : (⟨2, ![M, K]⟩ : Shape).Idx → EReal) (s : (⟨1, ![M]⟩ : Shape).Idx → EReal)
    (w : (⟨2, ![K, N]⟩ : Shape).Idx → EReal) (b : (⟨1, ![N]⟩ : Shape).Idx → EReal) : (⟨2, ![M, N]⟩ : Shape).Idx → EReal :=
  fun j => (∑ i : Fin K, (A (ix2 (j 0) i) * s (ix1 (j 0))) * w (ix2 i (j 1))) + b (ix1 (j 1))

/-- The hidden layer: the affine layer clipped below at zero. -/
def denseRelu {M K N : Nat} (A : (⟨2, ![M, K]⟩ : Shape).Idx → EReal) (s : (⟨1, ![M]⟩ : Shape).Idx → EReal)
    (w : (⟨2, ![K, N]⟩ : Shape).Idx → EReal) (b : (⟨1, ![N]⟩ : Shape).Idx → EReal) : (⟨2, ![M, N]⟩ : Shape).Idx → EReal :=
  fun j => max (denseLin A s w b j) zero

/-- A column `[M, 1]` read as the vector of its entries. -/
def colVec {M : Nat} (x : (⟨2, ![M, 1]⟩ : Shape).Idx → EReal) : (⟨1, ![M]⟩ : Shape).Idx → EReal := fun r => x (ix2 (r 0) (0 : Fin 1))

/-- A row `[1, N]` read as the vector of its entries. -/
def rowVec {N : Nat} (x : (⟨2, ![1, N]⟩ : Shape).Idx → EReal) : (⟨1, ![N]⟩ : Shape).Idx → EReal := fun r => x (ix2 (0 : Fin 1) (r 0))

/-! ## The kernel's block -/

/-- The affine part of the kernel's body on a block of `M` rows: scale, round to bf16 (the identity here), multiply
    into a zero accumulator, add the bias row. At every entry it is the affine layer of the block. -/
theorem block_lin_apply {M K N : Nat} (D : DotDims ⟨2, ![M, K]⟩ ⟨2, ![K, N]⟩ ⟨2, ![M, N]⟩) (hD : D = DotDims.plain M K N)
    (x0 : FVec Ideal ⟨2, ![M, K]⟩ .f32) (x1 : FVec Ideal ⟨2, ![M, 1]⟩ .f32) (x2 : FVec Ideal ⟨2, ![K, N]⟩ .bf16)
    (x3 : FVec Ideal ⟨2, ![1, N]⟩ .f32)
    (h0 : (⟨2, ![M, K]⟩ : Shape).ShapeCasts ⟨2, ![M, K]⟩) (h1 : (⟨2, ![M, 1]⟩ : Shape).ShapeCasts ⟨2, ![M, 1]⟩)
    (hb1 : (⟨2, ![M, 1]⟩ : Shape).Broadcasts ⟨2, ![M, K]⟩) (hlt : FTy.bf16.bits < FTy.f32.bits)
    (h2 : (⟨2, ![K, N]⟩ : Shape).ShapeCasts ⟨2, ![K, N]⟩) (h3 : (⟨2, ![1, N]⟩ : Shape).ShapeCasts ⟨2, ![1, N]⟩)
    (hb3 : (⟨2, ![1, N]⟩ : Shape).Broadcasts ⟨2, ![M, N]⟩) (j : (⟨2, ![M, N]⟩ : Shape).Idx) :
    addf (matmul D none (truncf .bf16 (mulf (shapeCast ⟨2, ![M, K]⟩ x0 h0)
        (broadcastTo ⟨2, ![M, K]⟩ (shapeCast ⟨2, ![M, 1]⟩ x1 h1) hb1)) hlt) (shapeCast ⟨2, ![K, N]⟩ x2 h2)
        (constant ⟨2, ![M, N]⟩ .f32 0x00000000#32))
      (broadcastTo ⟨2, ![M, N]⟩ (shapeCast ⟨2, ![1, N]⟩ x3 h3) hb3) j
      = denseLin x0 (colVec x1) x2 (rowVec x3) j := by
  obtain ⟨p, q, rfl⟩ : ∃ (p : Fin M) (q : Fin N), j = ix2 p q := ⟨j 0, j 1, eq_ix2 j⟩
  rw [addf_apply, Cert.LibRows.matmul_plain_apply D hD, broadcastTo_1b_ab_apply, shapeCast_self, shapeCast_self,
    shapeCast_self, shapeCast_self]
  unfold denseLin colVec rowVec
  refine congrArg₂ (· + ·) (Finset.sum_congr rfl fun i _ => ?_) rfl
  rw [truncf_apply, mulf_apply, Cert.LibCols.broadcastTo_a1_ab_apply]
  rfl

/-- The hidden layers' body on a block: the affine part clipped at zero. -/
theorem block_relu_apply {M K N : Nat} (D : DotDims ⟨2, ![M, K]⟩ ⟨2, ![K, N]⟩ ⟨2, ![M, N]⟩) (hD : D = DotDims.plain M K N)
    (x0 : FVec Ideal ⟨2, ![M, K]⟩ .f32) (x1 : FVec Ideal ⟨2, ![M, 1]⟩ .f32) (x2 : FVec Ideal ⟨2, ![K, N]⟩ .bf16)
    (x3 : FVec Ideal ⟨2, ![1, N]⟩ .f32)
    (h0 : (⟨2, ![M, K]⟩ : Shape).ShapeCasts ⟨2, ![M, K]⟩) (h1 : (⟨2, ![M, 1]⟩ : Shape).ShapeCasts ⟨2, ![M, 1]⟩)
    (hb1 : (⟨2, ![M, 1]⟩ : Shape).Broadcasts ⟨2, ![M, K]⟩) (hlt : FTy.bf16.bits < FTy.f32.bits)
    (h2 : (⟨2, ![K, N]⟩ : Shape).ShapeCasts ⟨2, ![K, N]⟩) (h3 : (⟨2, ![1, N]⟩ : Shape).ShapeCasts ⟨2, ![1, N]⟩)
    (hb3 : (⟨2, ![1, N]⟩ : Shape).Broadcasts ⟨2, ![M, N]⟩) (j : (⟨2, ![M, N]⟩ : Shape).Idx) :
    maximumf (addf (matmul D none (truncf .bf16 (mulf (shapeCast ⟨2, ![M, K]⟩ x0 h0)
        (broadcastTo ⟨2, ![M, K]⟩ (shapeCast ⟨2, ![M, 1]⟩ x1 h1) hb1)) hlt) (shapeCast ⟨2, ![K, N]⟩ x2 h2)
        (constant ⟨2, ![M, N]⟩ .f32 0x00000000#32))
      (broadcastTo ⟨2, ![M, N]⟩ (shapeCast ⟨2, ![1, N]⟩ x3 h3) hb3))
      (broadcast ⟨2, ![M, N]⟩ (Scalar.ofBits (F := Ideal) .f32 0x00000000#32)) j
      = denseRelu x0 (colVec x1) x2 (rowVec x3) j := by
  rw [maximumf_apply, block_lin_apply D hD x0 x1 x2 x3 h0 h1 hb1 hlt h2 h3 hb3 j]
  rfl

/-! ## The reference's whole array -/

/-- The reference's affine layer on the whole array: the rows scaled by the broadcast column, the host's matrix
    product, the bias broadcast down the rows. At every entry it is the affine layer. -/
theorem host_lin_apply {M K N : Nat} (D : DotDims ⟨2, ![M, K]⟩ ⟨2, ![K, N]⟩ ⟨2, ![M, N]⟩) (hD : D = DotDims.plain M K N)
    (A : FVec Ideal ⟨2, ![M, K]⟩ .f32) (s : FVec Ideal ⟨1, ![M]⟩ .f32) (w : FVec Ideal ⟨2, ![K, N]⟩ .f32)
    (b : FVec Ideal ⟨1, ![N]⟩ .f32)
    (hs1 : (⟨1, ![M]⟩ : Shape).BroadcastsInDim ⟨2, ![M, 1]⟩ ![0])
    (hs2 : (⟨2, ![M, 1]⟩ : Shape).BroadcastsInDim ⟨2, ![M, K]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1]) (j : (⟨2, ![M, N]⟩ : Shape).Idx) :
    addf (Host.dotGeneral D none (mulf A (broadcastInDim ⟨2, ![M, K]⟩ ![0, 1] hs2 (broadcastInDim ⟨2, ![M, 1]⟩ ![0] hs1 s))) w)
      (broadcastInDim ⟨2, ![M, N]⟩ ![0, 1] hb2 (broadcastInDim ⟨2, ![1, N]⟩ ![1] hb1 b)) j
      = denseLin A s w b j := by
  obtain ⟨p, q, rfl⟩ : ∃ (p : Fin M) (q : Fin N), j = ix2 p q := ⟨j 0, j 1, eq_ix2 j⟩
  rw [addf_apply, Cert.LibRows.dotGeneral_plain_apply D hD, Cert.LibRows.rowBiasInDim_apply]
  unfold denseLin
  refine congrArg₂ (· + ·) (Finset.sum_congr rfl fun i _ => ?_) rfl
  rw [mulf_apply, Cert.LibCols.inDim_a1_ab_apply, Cert.LibCols.inDim_a_a1_apply]
  rfl

/-- The reference's hidden layer: the affine layer against a broadcast zero. -/
theorem host_relu_apply {M K N : Nat} (D : DotDims ⟨2, ![M, K]⟩ ⟨2, ![K, N]⟩ ⟨2, ![M, N]⟩) (hD : D = DotDims.plain M K N)
    (A : FVec Ideal ⟨2, ![M, K]⟩ .f32) (s : FVec Ideal ⟨1, ![M]⟩ .f32) (w : FVec Ideal ⟨2, ![K, N]⟩ .f32)
    (b : FVec Ideal ⟨1, ![N]⟩ .f32)
    (hs1 : (⟨1, ![M]⟩ : Shape).BroadcastsInDim ⟨2, ![M, 1]⟩ ![0])
    (hs2 : (⟨2, ![M, 1]⟩ : Shape).BroadcastsInDim ⟨2, ![M, K]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1])
    (hz : (⟨0, ![]⟩ : Shape).BroadcastsInDim ⟨2, ![M, N]⟩ ![]) (j : (⟨2, ![M, N]⟩ : Shape).Idx) :
    maximumf (addf (Host.dotGeneral D none (mulf A (broadcastInDim ⟨2, ![M, K]⟩ ![0, 1] hs2 (broadcastInDim ⟨2, ![M, 1]⟩ ![0] hs1 s))) w)
      (broadcastInDim ⟨2, ![M, N]⟩ ![0, 1] hb2 (broadcastInDim ⟨2, ![1, N]⟩ ![1] hb1 b)))
      (broadcastInDim ⟨2, ![M, N]⟩ ![] hz (constant (F := Ideal) ⟨0, ![]⟩ .f32 0x00000000#32)) j
      = denseRelu A s w b j := by
  rw [maximumf_apply, host_lin_apply D hD A s w b hs1 hs2 hb1 hb2 j, Cert.LibRows.scalarInDim_apply]
  rfl

/-! ## One entry depends on one row

An entry `(p, q)` of the layer reads row `p` of the features, the scale of row `p`, column `q` of the weights and
entry `q` of the bias: two layers whose operands agree there agree at the entry, whatever their numbers of rows. This is
what carries a block of rows to its place in the whole array. -/

theorem denseLin_congr {M M' K N : Nat}
    {A : (⟨2, ![M, K]⟩ : Shape).Idx → EReal} {s : (⟨1, ![M]⟩ : Shape).Idx → EReal}
    {w : (⟨2, ![K, N]⟩ : Shape).Idx → EReal} {b : (⟨1, ![N]⟩ : Shape).Idx → EReal}
    {A' : (⟨2, ![M', K]⟩ : Shape).Idx → EReal} {s' : (⟨1, ![M']⟩ : Shape).Idx → EReal}
    {w' : (⟨2, ![K, N]⟩ : Shape).Idx → EReal} {b' : (⟨1, ![N]⟩ : Shape).Idx → EReal}
    (j : (⟨2, ![M', N]⟩ : Shape).Idx) (j' : (⟨2, ![M, N]⟩ : Shape).Idx)
    (hA : ∀ i : Fin K, A' (ix2 (j 0) i) = A (ix2 (j' 0) i)) (hs : s' (ix1 (j 0)) = s (ix1 (j' 0)))
    (hw : ∀ i : Fin K, w' (ix2 i (j 1)) = w (ix2 i (j' 1))) (hb : b' (ix1 (j 1)) = b (ix1 (j' 1))) :
    denseLin A' s' w' b' j = denseLin A s w b j' := by
  unfold denseLin
  rw [hs, hb]
  exact congrArg (· + b (ix1 (j' 1))) (Finset.sum_congr rfl fun i _ => by rw [hA i, hw i])

theorem denseRelu_congr {M M' K N : Nat}
    {A : (⟨2, ![M, K]⟩ : Shape).Idx → EReal} {s : (⟨1, ![M]⟩ : Shape).Idx → EReal}
    {w : (⟨2, ![K, N]⟩ : Shape).Idx → EReal} {b : (⟨1, ![N]⟩ : Shape).Idx → EReal}
    {A' : (⟨2, ![M', K]⟩ : Shape).Idx → EReal} {s' : (⟨1, ![M']⟩ : Shape).Idx → EReal}
    {w' : (⟨2, ![K, N]⟩ : Shape).Idx → EReal} {b' : (⟨1, ![N]⟩ : Shape).Idx → EReal}
    (j : (⟨2, ![M', N]⟩ : Shape).Idx) (j' : (⟨2, ![M, N]⟩ : Shape).Idx)
    (hA : ∀ i : Fin K, A' (ix2 (j 0) i) = A (ix2 (j' 0) i)) (hs : s' (ix1 (j 0)) = s (ix1 (j' 0)))
    (hw : ∀ i : Fin K, w' (ix2 i (j 1)) = w (ix2 i (j' 1))) (hb : b' (ix1 (j 1)) = b (ix1 (j' 1))) :
    denseRelu A' s' w' b' j = denseRelu A s w b j' := by
  unfold denseRelu
  rw [denseLin_congr j j' hA hs hw hb]

/-! ## The kernel's operands against the reference's -/

/-- A vector made a column by a reshape, read back as a vector, is the vector. -/
theorem colVec_shapeCast {M : Nat} (s : (⟨1, ![M]⟩ : Shape).Idx → EReal) (h : (⟨1, ![M]⟩ : Shape).ShapeCasts ⟨2, ![M, 1]⟩) :
    colVec (shapeCast ⟨2, ![M, 1]⟩ s h) = s := by
  funext r
  obtain ⟨p, rfl⟩ : ∃ p : Fin M, r = ix1 p := ⟨r 0, eq_ix1 r⟩
  exact Cert.LibCols.shapeCast_a_a1_apply s h p 0

/-- A vector made a row by a reshape, read back as a vector, is the vector. -/
theorem rowVec_shapeCast {N : Nat} (b : (⟨1, ![N]⟩ : Shape).Idx → EReal) (h : (⟨1, ![N]⟩ : Shape).ShapeCasts ⟨2, ![1, N]⟩) :
    rowVec (shapeCast ⟨2, ![1, N]⟩ b h) = b := by
  funext r
  obtain ⟨q, rfl⟩ : ∃ q : Fin N, r = ix1 q := ⟨r 0, eq_ix1 r⟩
  exact shapeCast_a_1a_apply b h 0 q

end Cert.Layer

end
-- ==== Proof.Region0.lean ====
/-
  Launch 0 of the dense-layer kernel, read as one whole-array function. The grid has ten points; point `t` takes rows
  `5000 t … 5000 t + 4999` of the aggregated features and of the column of row scales, the whole weight matrix and the
  whole bias row, and writes back the same rows of the result. What it writes is the layer of its block of rows, and an
  entry of the layer reads only its own row: so every block written back is the block of the layer of the WHOLE arrays,
  the ten blocks tile the result, and the result array ends holding that layer.
-/
import proofs.«149280_j56581899158114_1_alg».proof.Proof.Gen.KernelIdeal.Frame
import proofs.«149280_j56581899158114_1_alg».proof.Proof.Layer

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Layer

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the launch finds them. -/
def G (c : Dev nD) : S50000x128.Idx → EReal :=
  denseRelu (V c main_v25) (colVec (V c main_v28)) (V c main_v26) (rowVec (V c main_v27))

/-- The body's one stored value is the layer of its loaded blocks. -/
theorem pay_eq (x0 : Vec Ideal S5000x128 .f32) (x1 : Vec Ideal S5000x1 .f32) (x2 : Vec Ideal S128x128 .bf16) (x3 : Vec Ideal S1x128 .f32) :
    k0_pay1 x0 x1 x2 x3 = denseRelu x0 (colVec x1) x2 (rowVec x3) := by
  funext j
  unfold k0_pay1
  exact block_relu_apply dot_S5000x128_S128x128_S5000x128_1_0_0_1_n_n rfl x0 x1 x2 x3 _ _ _ _ _ _ _ j

/-- The printed index maps, decided over the grid: the row windows sit at block `t`, the whole-array windows at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of the layer of the whole arrays. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S5000x128) hz, View.ld_unit_zero (S := S5000x1) hz, View.ld_unit_zero (S := S128x128) hz,
    View.ld_unit_zero (S := S1x128) hz]
  rw [pay_eq]
  obtain ⟨e00, e01, e10, e11, e20, e21, e30, e31, e40, e41⟩ := idx_facts t
  funext j
  show denseRelu (iblk0 V c 0 t) (colVec (iblk0 V c 1 t)) (iblk0 V c 2 t) (rowVec (iblk0 V c 3 t)) j
      = denseRelu (V c main_v25) (colVec (V c main_v28)) (V c main_v26) (rowVec (V c main_v27)) (((cfg0.win 4).blk t).view.emb j)
  have hj0 : (j 0).val < 5000 := (j 0).isLt
  have hj1 : (j 1).val < 128 := (j 1).isLt
  refine denseRelu_congr (M' := 5000) (M := 50000) (K := 128) (N := 128) j _ (fun i => ?_) ?_ (fun i => ?_) ?_
  · show V c main_v25 (((cfg0.win 0).blk t).view.emb (ix2 (j 0) i)) = V c main_v25 (ix2 ((((cfg0.win 4).blk t).view.emb j) 0) i)
    refine congrArg _ ?_
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * i.val = i.val; omega
  · show V c main_v28 (((cfg0.win 1).blk t).view.emb (ix2 (j 0) (0 : Fin 1))) = V c main_v28 (ix2 ((((cfg0.win 4).blk t).view.emb j) 0) (0 : Fin 1))
    refine congrArg _ ?_
    funext a; apply Fin.ext
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 1 + 1 * 0 = 0; omega
  · show V c main_v26 (((cfg0.win 2).blk t).view.emb (ix2 i (j 1))) = V c main_v26 (ix2 i ((((cfg0.win 4).blk t).view.emb j) 1))
    refine congrArg _ ?_
    funext a; apply Fin.ext
    match a with
    | ⟨0, _⟩ => show win0_2.index t (0 : Fin 2) * 128 + 1 * i.val = i.val; omega
    | ⟨1, _⟩ => show win0_2.index t (1 : Fin 2) * 128 + 1 * (j 1).val = win0_4.index t (1 : Fin 2) * 128 + 1 * (j 1).val; omega
  · show V c main_v27 (((cfg0.win 3).blk t).view.emb (ix2 (0 : Fin 1) (j 1))) = V c main_v27 (ix2 (0 : Fin 1) ((((cfg0.win 4).blk t).view.emb j) 1))
    refine congrArg _ ?_
    funext a; apply Fin.ext
    match a with
    | ⟨0, _⟩ => show win0_3.index t (0 : Fin 2) * 1 + 1 * 0 = 0; omega
    | ⟨1, _⟩ => show win0_3.index t (1 : Fin 2) * 128 + 1 * (j 1).val = win0_4.index t (1 : Fin 2) * 128 + 1 * (j 1).val; omega

/-- An index of the result is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v29).slice (win0_4.rect t)).set ↔ _
  rw [View.set_slice_whole, Rect.mem_set_unit]
  exact Iff.rfl

/-- The ten blocks tile the result: row `r` lies in the block of point `r / 5000`. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show _ < grid0.N; rw [N_0]; omega⟩, rfl⟩
  obtain ⟨-, -, -, -, -, -, -, -, e40, e41⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE RESULT ARRAY after the launch is the layer of the arrays the launch found. -/
theorem final (c : Dev nD) : (dat0 V c).arrAt 4 cfg0.N = G V c :=
  (dat0 V c).arrAt_eq_of_cover 4 (G V c) (fun t _ => flushed_eq V c t) cover

end Cert.KernelIdeal.Region0

end
-- ==== Proof.Region1.lean ====
/-
  Launch 1 of the dense-layer kernel, read as one whole-array function. The grid has ten points; point `t` takes rows
  `5000 t … 5000 t + 4999` of the aggregated features and of the column of row scales, the whole weight matrix and the
  whole bias row, and writes back the same rows of the result. What it writes is the layer of its block of rows, and an
  entry of the layer reads only its own row: so every block written back is the block of the layer of the WHOLE arrays,
  the ten blocks tile the result, and the result array ends holding that layer.
-/
import proofs.«149280_j56581899158114_1_alg».proof.Proof.Gen.KernelIdeal.Frame
import proofs.«149280_j56581899158114_1_alg».proof.Proof.Layer

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Layer

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the launch finds them. -/
def G (c : Dev nD) : S50000x128.Idx → EReal :=
  denseRelu (V c main_v42) (colVec (V c main_v45)) (V c main_v43) (rowVec (V c main_v44))

/-- The body's one stored value is the layer of its loaded blocks. -/
theorem pay_eq (x0 : Vec Ideal S5000x128 .f32) (x1 : Vec Ideal S5000x1 .f32) (x2 : Vec Ideal S128x128 .bf16) (x3 : Vec Ideal S1x128 .f32) :
    k1_pay1 x0 x1 x2 x3 = denseRelu x0 (colVec x1) x2 (rowVec x3) := by
  funext j
  unfold k1_pay1
  exact block_relu_apply dot_S5000x128_S128x128_S5000x128_1_0_0_1_n_n rfl x0 x1 x2 x3 _ _ _ _ _ _ _ j

/-- The printed index maps, decided over the grid: the row windows sit at block `t`, the whole-array windows at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of the layer of the whole arrays. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S128x128) hz,
    View.ld_unit_zero (S := S1x128) hz]
  rw [pay_eq]
  obtain ⟨e00, e01, e10, e11, e20, e21, e30, e31, e40, e41⟩ := idx_facts t
  funext j
  show denseRelu (iblk1 V c 0 t) (colVec (iblk1 V c 1 t)) (iblk1 V c 2 t) (rowVec (iblk1 V c 3 t)) j
      = denseRelu (V c main_v42) (colVec (V c main_v45)) (V c main_v43) (rowVec (V c main_v44)) (((cfg1.win 4).blk t).view.emb j)
  have hj0 : (j 0).val < 5000 := (j 0).isLt
  have hj1 : (j 1).val < 128 := (j 1).isLt
  refine denseRelu_congr (M' := 5000) (M := 50000) (K := 128) (N := 128) j _ (fun i => ?_) ?_ (fun i => ?_) ?_
  · show V c main_v42 (((cfg1.win 0).blk t).view.emb (ix2 (j 0) i)) = V c main_v42 (ix2 ((((cfg1.win 4).blk t).view.emb j) 0) i)
    refine congrArg _ ?_
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * i.val = i.val; omega
  · show V c main_v45 (((cfg1.win 1).blk t).view.emb (ix2 (j 0) (0 : Fin 1))) = V c main_v45 (ix2 ((((cfg1.win 4).blk t).view.emb j) 0) (0 : Fin 1))
    refine congrArg _ ?_
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  · show V c main_v43 (((cfg1.win 2).blk t).view.emb (ix2 i (j 1))) = V c main_v43 (ix2 i ((((cfg1.win 4).blk t).view.emb j) 1))
    refine congrArg _ ?_
    funext a; apply Fin.ext
    match a with
    | ⟨0, _⟩ => show win1_2.index t (0 : Fin 2) * 128 + 1 * i.val = i.val; omega
    | ⟨1, _⟩ => show win1_2.index t (1 : Fin 2) * 128 + 1 * (j 1).val = win1_4.index t (1 : Fin 2) * 128 + 1 * (j 1).val; omega
  · show V c main_v44 (((cfg1.win 3).blk t).view.emb (ix2 (0 : Fin 1) (j 1))) = V c main_v44 (ix2 (0 : Fin 1) ((((cfg1.win 4).blk t).view.emb j) 1))
    refine congrArg _ ?_
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the result is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v46).slice (win1_4.rect t)).set ↔ _
  rw [View.set_slice_whole, Rect.mem_set_unit]
  exact Iff.rfl

/-- The ten blocks tile the result: row `r` lies in the block of point `r / 5000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show _ < grid1.N; rw [N_1]; omega⟩, rfl⟩
  obtain ⟨-, -, -, -, -, -, -, -, e40, e41⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE RESULT ARRAY after the launch is the layer of the arrays the launch found. -/
theorem final (c : Dev nD) : (dat1 V c).arrAt 4 cfg1.N = G V c :=
  (dat1 V c).arrAt_eq_of_cover 4 (G V c) (fun t _ => flushed_eq V c t) cover

end Cert.KernelIdeal.Region1

end
-- ==== Proof.Region2.lean ====
/-
  Launch 2 of the dense-layer kernel, read as one whole-array function. The grid has ten points; point `t` takes rows
  `5000 t … 5000 t + 4999` of the aggregated features and of the column of row scales, the whole weight matrix and the
  whole bias row, and writes back the same rows of the result. What it writes is the layer of its block of rows, and an
  entry of the layer reads only its own row: so every block written back is the block of the layer of the WHOLE arrays,
  the ten blocks tile the result, and the result array ends holding that layer.
-/
import proofs.«149280_j56581899158114_1_alg».proof.Proof.Gen.KernelIdeal.Frame
import proofs.«149280_j56581899158114_1_alg».proof.Proof.Layer

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Layer

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the launch finds them. -/
def G (c : Dev nD) : S50000x16.Idx → EReal :=
  denseLin (V c main_v59) (colVec (V c main_v62)) (V c main_v60) (rowVec (V c main_v61))

/-- The body's one stored value is the layer of its loaded blocks. -/
theorem pay_eq (x0 : Vec Ideal S5000x128 .f32) (x1 : Vec Ideal S5000x1 .f32) (x2 : Vec Ideal S128x16 .bf16) (x3 : Vec Ideal S1x16 .f32) :
    k2_pay1 x0 x1 x2 x3 = denseLin x0 (colVec x1) x2 (rowVec x3) := by
  funext j
  unfold k2_pay1
  exact block_lin_apply dot_S5000x128_S128x16_S5000x16_1_0_0_1_n_n rfl x0 x1 x2 x3 _ _ _ _ _ _ _ j

/-- The printed index maps, decided over the grid: the row windows sit at block `t`, the whole-array windows at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT POINT `t` WRITES BACK is block `t` of the layer of the whole arrays. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz, View.ld_unit_zero (S := S128x16) hz,
    View.ld_unit_zero (S := S1x16) hz]
  rw [pay_eq]
  obtain ⟨e00, e01, e10, e11, e20, e21, e30, e31, e40, e41⟩ := idx_facts t
  funext j
  show denseLin (iblk2 V c 0 t) (colVec (iblk2 V c 1 t)) (iblk2 V c 2 t) (rowVec (iblk2 V c 3 t)) j
      = denseLin (V c main_v59) (colVec (V c main_v62)) (V c main_v60) (rowVec (V c main_v61)) (((cfg2.win 4).blk t).view.emb j)
  have hj0 : (j 0).val < 5000 := (j 0).isLt
  have hj1 : (j 1).val < 16 := (j 1).isLt
  refine denseLin_congr (M' := 5000) (M := 50000) (K := 128) (N := 16) j _ (fun i => ?_) ?_ (fun i => ?_) ?_
  · show V c main_v59 (((cfg2.win 0).blk t).view.emb (ix2 (j 0) i)) = V c main_v59 (ix2 ((((cfg2.win 4).blk t).view.emb j) 0) i)
    refine congrArg _ ?_
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * i.val = i.val; omega
  · show V c main_v62 (((cfg2.win 1).blk t).view.emb (ix2 (j 0) (0 : Fin 1))) = V c main_v62 (ix2 ((((cfg2.win 4).blk t).view.emb j) 0) (0 : Fin 1))
    refine congrArg _ ?_
    funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 1 + 1 * 0 = 0; omega
  · show V c main_v60 (((cfg2.win 2).blk t).view.emb (ix2 i (j 1))) = V c main_v60 (ix2 i ((((cfg2.win 4).blk t).view.emb j) 1))
    refine congrArg _ ?_
    funext a; apply Fin.ext
    match a with
    | ⟨0, _⟩ => show win2_2.index t (0 : Fin 2) * 128 + 1 * i.val = i.val; omega
    | ⟨1, _⟩ => show win2_2.index t (1 : Fin 2) * 16 + 1 * (j 1).val = win2_4.index t (1 : Fin 2) * 16 + 1 * (j 1).val; omega
  · show V c main_v61 (((cfg2.win 3).blk t).view.emb (ix2 (0 : Fin 1) (j 1))) = V c main_v61 (ix2 (0 : Fin 1) ((((cfg2.win 4).blk t).view.emb j) 1))
    refine congrArg _ ?_
    funext a; apply Fin.ext
    match a with
    | ⟨0, _⟩ => show win2_3.index t (0 : Fin 2) * 1 + 1 * 0 = 0; omega
    | ⟨1, _⟩ => show win2_3.index t (1 : Fin 2) * 16 + 1 * (j 1).val = win2_4.index t (1 : Fin 2) * 16 + 1 * (j 1).val; omega

/-- An index of the result is in point `t`'s block iff each coordinate is in the block's range on its axis. -/
theorem mem_blk (t : Fin cfg2.N) (i : S50000x16.Idx) :
    i ∈ ((cfg2.win 4).blk t).view.set ↔ ∀ a : Fin 2, win2_4.index t a * S5000x16.size a ≤ (i a).val ∧ (i a).val < win2_4.index t a * S5000x16.size a + S5000x16.size a := by
  show i ∈ ((View.whole main_v63).slice (win2_4.rect t)).set ↔ _
  rw [View.set_slice_whole, Rect.mem_set_unit]
  exact Iff.rfl

/-- The ten blocks tile the result: row `r` lies in the block of point `r / 5000`. -/
theorem cover (i : S50000x16.Idx) : ∃ t : Fin cfg2.N, (cfg2.win 4).flush t = true ∧ i ∈ ((cfg2.win 4).blk t).view.set := by
  have hi0 : (i 0).val < 50000 := (i 0).isLt
  have hi1 : (i 1).val < 16 := (i 1).isLt
  obtain ⟨t, ht⟩ : ∃ t : Fin cfg2.N, t.val = (i 0).val / 5000 :=
    ⟨⟨(i 0).val / 5000, by show _ < grid2.N; rw [N_2]; omega⟩, rfl⟩
  obtain ⟨-, -, -, -, -, -, -, -, e40, e41⟩ := idx_facts t
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 16 ≤ (i 1).val ∧ (i 1).val < win2_4.index t (1 : Fin 2) * 16 + 16; omega

/-- THE RESULT ARRAY after the launch is the layer of the arrays the launch found. -/
theorem final (c : Dev nD) : (dat2 V c).arrAt 4 cfg2.N = G V c :=
  (dat2 V c).arrAt_eq_of_cover 4 (G V c) (fun t _ => flushed_eq V c t) cover

end Cert.KernelIdeal.Region2

end
-- ==== Proof.Chain.lean ====
/-
  The graph network as a composition of whole-array functions. Both programs compute, from the node features, the two
  edge-end lists and three layers' weights and biases,
      deg⁻¹ᐟ² of the out- and in-degrees (each clamped below at one),
      three times: scale the rows by the out-degree factor, gather the source rows along the edges, add them up at the
      destination rows, and apply a dense layer scaled by the in-degree factor.
  The degree factors and the gather-and-add step are the SAME host operations in both programs: they are named here once
  (`degNorm`, `aggregate`) in the reference's spelling and never opened. The three dense layers are parameters
  (`network L₁ L₂ L₃`): the reference applies the host's matrix product, the kernel its three launches.
-/
import proofs.«149280_j56581899158114_1_alg».proof.ReferenceIdeal
import Idealize.ShloMosaic.PureOps.Ideal

noncomputable section

namespace Cert.Chain

open Idealize.ShloMosaic Cert.ReferenceIdeal Cert.ReferenceIdeal.Facts₀

variable [Cert.ReferenceIdeal.Facts]

/-- A float array of a shape, at the exact values. -/
abbrev FA (S : Shape) : Type := FVec Ideal S .f32
/-- An array of 32-bit integers of a shape. -/
abbrev IA (S : Shape) : Type := IVec S 32

/-- The inverse square root of a node's degree, the degree counted by adding a one at every edge end and clamped below
    at one. -/
def degNorm (e : IA S800000) : FA S50000 :=
  Host.rsqrt (maximumf (Host.scatterAdd scatter_S50000_S800000x1_S800000_n_0_0_1 (broadcastInDim S50000 ![] bcast_S_S50000 (constant S_ .f32 0x00000000#32)) (broadcastInDim S800000x1 ![0] bcast_S800000_S800000x1_0 e) (broadcastInDim S800000 ![] bcast_S_S800000 (constant S_ .f32 0x3F800000#32))) (broadcastInDim S50000 ![] bcast_S_S50000 (constant S_ .f32 0x3F800000#32)))

/-- One round of message passing: the rows scaled by the out-degree factor, gathered at the edges' sources (a negative
    index counted from the end), summed at the edges' destinations. -/
def aggregate (h : FA S50000x128) (nOut : FA S50000) (src dst : IA S800000) : FA S50000x128 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 (mulf h (broadcastInDim S50000x128 ![0, 1] bcast_S50000x1_S50000x128_0_1 (broadcastInDim S50000x1 ![0] bcast_S50000_S50000x1_0 nOut))) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- The reference's hidden dense layer: rows scaled by the in-degree factor, the host's matrix product, the bias, the
    clip at zero. -/
def hostHidden (agg : FA S50000x128) (nIn : FA S50000) (w : FA S128x128) (b : FA S128) : FA S50000x128 :=
  maximumf (addf (Host.dotGeneral dot_S50000x128_S128x128_S50000x128_1_0_0_1_n_n none (mulf agg (broadcastInDim S50000x128 ![0, 1] bcast_S50000x1_S50000x128_0_1 (broadcastInDim S50000x1 ![0] bcast_S50000_S50000x1_0 nIn))) w) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The reference's output dense layer: the same without the clip, onto sixteen columns. -/
def hostOut (agg : FA S50000x128) (nIn : FA S50000) (w : FA S128x16) (b : FA S16) : FA S50000x16 :=
  addf (Host.dotGeneral dot_S50000x128_S128x16_S50000x16_1_0_0_1_n_n none (mulf agg (broadcastInDim S50000x128 ![0, 1] bcast_S50000x1_S50000x128_0_1 (broadcastInDim S50000x1 ![0] bcast_S50000_S50000x1_0 nIn))) w) (broadcastInDim S50000x16 ![0, 1] bcast_S1x16_S50000x16_0_1 (broadcastInDim S1x16 ![1] bcast_S16_S1x16_1 b))

/-- The three-layer network over given dense layers. -/
def network (L1 L2 : FA S50000x128 → FA S50000 → FA S128x128 → FA S128 → FA S50000x128)
    (L3 : FA S50000x128 → FA S50000 → FA S128x16 → FA S16 → FA S50000x16)
    (a0 : FA S50000x128) (a1 a2 : IA S800000) (a3 : FA S128x128) (a4 : FA S128) (a5 : FA S128x128) (a6 : FA S128)
    (a7 : FA S128x16) (a8 : FA S16) : FA S50000x16 :=
  L3 (aggregate (L2 (aggregate (L1 (aggregate a0 (degNorm a1) a1 a2) (degNorm a2) a3 a4) (degNorm a1) a1 a2) (degNorm a2) a5 a6)
    (degNorm a1) a1 a2) (degNorm a2) a7 a8

end Cert.Chain

end
-- ==== Proof.Stretch0.lean ====
/-
  The kernel program's first stretch of host operations, read at the buffers the rest of the program uses, from ANY
  contents `W` of the buffers before it: the two degree factors, the first round of message passing, the first layer's
  weights rounded to bf16, and the bias and the in-degree factor reshaped into a row and a column. The operations are the
  reference's own (`degNorm`, `aggregate`), so each reading is the same term.
-/
import proofs.«149280_j56581899158114_1_alg».proof.Proof.Gen.KernelIdeal.Launch
import proofs.«149280_j56581899158114_1_alg».proof.Proof.Gen.ReferenceIdeal
import proofs.«149280_j56581899158114_1_alg».proof.Proof.Chain
import Idealize.ShloMosaic.Lib.StableHlo.Run

noncomputable section

namespace Cert.KernelIdeal.Stretch0

open Idealize.ShloMosaic Idealize.ShloMosaic.TcCoe Idealize.SL.Sem Idealize.ShloMosaic.StableHlo
open Cert.KernelIdeal Cert.KernelIdeal.Gen Cert.Chain

variable (W : Valuation τ sig (Elt Ideal))

set_option maxHeartbeats 4000000 in
/-- The out-degree factor. -/
theorem v9 : StableHlo.after (hostOps0 (F := Ideal)) W (Proc.devRef .tc main_v9) = degNorm (W (Proc.devRef .tc main_arg1)) := by
  after_results_simp <;> rfl

set_option maxHeartbeats 4000000 in
/-- The in-degree factor. -/
theorem v12 : StableHlo.after (hostOps0 (F := Ideal)) W (Proc.devRef .tc main_v12) = degNorm (W (Proc.devRef .tc main_arg2)) := by
  after_results_simp <;> rfl

set_option maxHeartbeats 4000000 in
/-- The first round of message passing, on the input features. -/
theorem v25 : StableHlo.after (hostOps0 (F := Ideal)) W (Proc.devRef .tc main_v25) = aggregate (W (Proc.devRef .tc main_arg0)) (degNorm (W (Proc.devRef .tc main_arg1))) (W (Proc.devRef .tc main_arg1)) (W (Proc.devRef .tc main_arg2)) := by
  after_results_simp <;> rfl

set_option maxHeartbeats 4000000 in
/-- The first layer's weights, rounded to bf16. -/
theorem v26 : StableHlo.after (hostOps0 (F := Ideal)) W (Proc.devRef .tc main_v26) = (truncf (F := Ideal) .bf16 ((W (Proc.devRef .tc main_arg3)) : FVec Ideal S128x128 .f32) bitsLt_bf16_f32 : FVec Ideal S128x128 .bf16) := by
  after_results_simp <;> rfl

set_option maxHeartbeats 4000000 in
/-- The first layer's bias as a row. -/
theorem v27 : StableHlo.after (hostOps0 (F := Ideal)) W (Proc.devRef .tc main_v27) = shapeCast S1x128 (W (Proc.devRef .tc main_arg4)) shapeCasts_S128_S1x128 := by
  after_results_simp <;> rfl

set_option maxHeartbeats 4000000 in
/-- The in-degree factor as a column. -/
theorem v28 : StableHlo.after (hostOps0 (F := Ideal)) W (Proc.devRef .tc main_v28) = shapeCast S50000x1 (degNorm (W (Proc.devRef .tc main_arg2))) shapeCasts_S50000_S50000x1 := by
  after_results_simp <;> rfl

set_option maxHeartbeats 4000000 in
/-- The stretch does not write this buffer. -/
theorem keep_arg1 : StableHlo.after (hostOps0 (F := Ideal)) W (Proc.devRef .tc main_arg1) = W (Proc.devRef .tc main_arg1) := by
  after_results_simp <;> rfl

set_option maxHeartbeats 4000000 in
/-- The stretch does not write this buffer. -/
theorem keep_arg2 : StableHlo.after (hostOps0 (F := Ideal)) W (Proc.devRef .tc main_arg2) = W (Proc.devRef .tc main_arg2) := by
  after_results_simp <;> rfl

set_option maxHeartbeats 4000000 in
/-- The stretch does not write this buffer. -/
theorem keep_arg5 : StableHlo.after (hostOps0 (F := Ideal)) W (Proc.devRef .tc main_arg5) = W (Proc.devRef .tc main_arg5) := by
  after_results_simp <;> rfl

set_option maxHeartbeats 4000000 in
/-- The stretch does not write this buffer. -/
theorem keep_arg6 : StableHlo.after (hostOps0 (F := Ideal)) W (Proc.devRef .tc main_arg6) = W (Proc.devRef .tc main_arg6) := by
  after_results_simp <;> rfl

set_option maxHeartbeats 4000000 in
/-- The stretch does not write this buffer. -/
theorem keep_arg7 : StableHlo.after (hostOps0 (F := Ideal)) W (Proc.devRef .tc main_arg7) = W (Proc.devRef .tc main_arg7) := by
  after_results_simp <;> rfl

set_option maxHeartbeats 4000000 in
/-- The stretch does not write this buffer. -/
theorem keep_arg8 : StableHlo.after (hostOps0 (F := Ideal)) W (Proc.devRef .tc main_arg8) = W (Proc.devRef .tc main_arg8) := by
  after_results_simp <;> rfl

end Cert.KernelIdeal.Stretch0

end
-- ==== Proof.Stretch1.lean ====
/-
  The kernel program's second stretch of host operations, between the first and the second launch, read from ANY
  contents `W` of the buffers before it: the second round of message passing on the first launch's result, the second
  layer's weights rounded to bf16, its bias as a row, the in-degree factor as a column.
-/
import proofs.«149280_j56581899158114_1_alg».proof.Proof.Gen.KernelIdeal.Launch
import proofs.«149280_j56581899158114_1_alg».proof.Proof.Gen.ReferenceIdeal
import proofs.«149280_j56581899158114_1_alg».proof.Proof.Chain
import Idealize.ShloMosaic.Lib.StableHlo.Run

noncomputable section

namespace Cert.KernelIdeal.Stretch1

open Idealize.ShloMosaic Idealize.ShloMosaic.TcCoe Idealize.SL.Sem Idealize.ShloMosaic.StableHlo
open Cert.KernelIdeal Cert.KernelIdeal.Gen Cert.Chain

variable (W : Valuation τ sig (Elt Ideal))

set_option maxHeartbeats 4000000 in
/-- The second round of message passing, on the first launch's result. -/
theorem v42 : StableHlo.after (hostOps1 (F := Ideal)) W (Proc.devRef .tc main_v42) = aggregate (W (Proc.devRef .tc main_v29)) (W (Proc.devRef .tc main_v9)) (W (Proc.devRef .tc main_arg1)) (W (Proc.devRef .tc main_arg2)) := by
  after_results_simp <;> rfl

set_option maxHeartbeats 4000000 in
/-- The second layer's weights, rounded to bf16. -/
theorem v43 : StableHlo.after (hostOps1 (F := Ideal)) W (Proc.devRef .tc main_v43) = (truncf (F := Ideal) .bf16 ((W (Proc.devRef .tc main_arg5)) : FVec Ideal S128x128 .f32) bitsLt_bf16_f32 : FVec Ideal S128x128 .bf16) := by
  after_results_simp <;> rfl

set_option maxHeartbeats 4000000 in
/-- The second layer's bias as a row. -/
theorem v44 : StableHlo.after (hostOps1 (F := Ideal)) W (Proc.devRef .tc main_v44) = shapeCast S1x128 (W (Proc.devRef .tc main_arg6)) shapeCasts_S128_S1x128 := by
  after_results_simp <;> rfl

set_option maxHeartbeats 4000000 in
/-- The in-degree factor as a column. -/
theorem v45 : StableHlo.after (hostOps1 (F := Ideal)) W (Proc.devRef .tc main_v45) = shapeCast S50000x1 (W (Proc.devRef .tc main_v12)) shapeCasts_S50000_S50000x1 := by
  after_results_simp <;> rfl

set_option maxHeartbeats 4000000 in
/-- The stretch does not write this buffer. -/
theorem keep_v9 : StableHlo.after (hostOps1 (F := Ideal)) W (Proc.devRef .tc main_v9) = W (Proc.devRef .tc main_v9) := by
  after_results_simp <;> rfl

set_option maxHeartbeats 4000000 in
/-- The stretch does not write this buffer. -/
theorem keep_v12 : StableHlo.after (hostOps1 (F := Ideal)) W (Proc.devRef .tc main_v12) = W (Proc.devRef .tc main_v12) := by
  after_results_simp <;> rfl

set_option maxHeartbeats 4000000 in
/-- The stretch does not write this buffer. -/
theorem keep_arg1 : StableHlo.after (hostOps1 (F := Ideal)) W (Proc.devRef .tc main_arg1) = W (Proc.devRef .tc main_arg1) := by
  after_results_simp <;> rfl

set_option maxHeartbeats 4000000 in
/-- The stretch does not write this buffer. -/
theorem keep_arg2 : StableHlo.after (hostOps1 (F := Ideal)) W (Proc.devRef .tc main_arg2) = W (Proc.devRef .tc main_arg2) := by
  after_results_simp <;> rfl

set_option maxHeartbeats 4000000 in
/-- The stretch does not write this buffer. -/
theorem keep_arg7 : StableHlo.after (hostOps1 (F := Ideal)) W (Proc.devRef .tc main_arg7) = W (Proc.devRef .tc main_arg7) := by
  after_results_simp <;> rfl

set_option maxHeartbeats 4000000 in
/-- The stretch does not write this buffer. -/
theorem keep_arg8 : StableHlo.after (hostOps1 (F := Ideal)) W (Proc.devRef .tc main_arg8) = W (Proc.devRef .tc main_arg8) := by
  after_results_simp <;> rfl

end Cert.KernelIdeal.Stretch1

end
-- ==== Proof.Stretch2.lean ====
/-
  The kernel program's third stretch of host operations, between the second and the third launch, read from ANY
  contents `W` of the buffers before it: the third round of message passing on the second launch's result, the output
  layer's weights rounded to bf16, its bias as a row, the in-degree factor as a column.
-/
import proofs.«149280_j56581899158114_1_alg».proof.Proof.Gen.KernelIdeal.Launch
import proofs.«149280_j56581899158114_1_alg».proof.Proof.Gen.ReferenceIdeal
import proofs.«149280_j56581899158114_1_alg».proof.Proof.Chain
import Idealize.ShloMosaic.Lib.StableHlo.Run

noncomputable section

namespace Cert.KernelIdeal.Stretch2

open Idealize.ShloMosaic Idealize.ShloMosaic.TcCoe Idealize.SL.Sem Idealize.ShloMosaic.StableHlo
open Cert.KernelIdeal Cert.KernelIdeal.Gen Cert.Chain

variable (W : Valuation τ sig (Elt Ideal))

set_option maxHeartbeats 4000000 in
/-- The third round of message passing, on the second launch's result. -/
theorem v59 : StableHlo.after (hostOps2 (F := Ideal)) W (Proc.devRef .tc main_v59) = aggregate (W (Proc.devRef .tc main_v46)) (W (Proc.devRef .tc main_v9)) (W (Proc.devRef .tc main_arg1)) (W (Proc.devRef .tc main_arg2)) := by
  after_results_simp <;> rfl

set_option maxHeartbeats 4000000 in
/-- The output layer's weights, rounded to bf16. -/
theorem v60 : StableHlo.after (hostOps2 (F := Ideal)) W (Proc.devRef .tc main_v60) = (truncf (F := Ideal) .bf16 ((W (Proc.devRef .tc main_arg7)) : FVec Ideal S128x16 .f32) bitsLt_bf16_f32 : FVec Ideal S128x16 .bf16) := by
  after_results_simp <;> rfl

set_option maxHeartbeats 4000000 in
/-- The output layer's bias as a row. -/
theorem v61 : StableHlo.after (hostOps2 (F := Ideal)) W (Proc.devRef .tc main_v61) = shapeCast S1x16 (W (Proc.devRef .tc main_arg8)) shapeCasts_S16_S1x16 := by
  after_results_simp <;> rfl

set_option maxHeartbeats 4000000 in
/-- The in-degree factor as a column. -/
theorem v62 : StableHlo.after (hostOps2 (F := Ideal)) W (Proc.devRef .tc main_v62) = shapeCast S50000x1 (W (Proc.devRef .tc main_v12)) shapeCasts_S50000_S50000x1 := by
  after_results_simp <;> rfl

end Cert.KernelIdeal.Stretch2

end
-- ==== Proof.Net.lean ====
/-
  THE SPECIFICATION both programs meet: the three-layer graph network whose dense layers are the entry-by-entry layers of
  `Layer.lean` — two hidden layers `max ((A · s) w + b, 0)` on 128 columns and an affine output layer on 16 — composed
  with the shared degree factors and message-passing rounds of `Chain.lean`.
-/
import proofs.«149280_j56581899158114_1_alg».proof.Proof.Chain
import proofs.«149280_j56581899158114_1_alg».proof.Proof.Layer

noncomputable section

namespace Cert.Net

open Idealize.ShloMosaic Cert.ReferenceIdeal Cert.Chain Cert.Layer

variable [Cert.ReferenceIdeal.Facts]

/-- The specification's hidden layer at the network's shapes. -/
def hidden (A : FA S50000x128) (s : FA S50000) (w : FA S128x128) (b : FA S128) : FA S50000x128 :=
  denseRelu (M := 50000) (K := 128) (N := 128) A s w b

/-- The specification's output layer at the network's shapes. -/
def out (A : FA S50000x128) (s : FA S50000) (w : FA S128x16) (b : FA S16) : FA S50000x16 :=
  denseLin (M := 50000) (K := 128) (N := 16) A s w b

/-- The result as ONE function of the nine argument arrays. -/
def spec (a0 : FA S50000x128) (a1 a2 : IA S800000) (a3 : FA S128x128) (a4 : FA S128) (a5 : FA S128x128) (a6 : FA S128)
    (a7 : FA S128x16) (a8 : FA S16) : FA S50000x16 :=
  network hidden hidden out a0 a1 a2 a3 a4 a5 a6 a7 a8

end Cert.Net

end
-- ==== Proof.KernelValue.lean ====
/-
  The idealized kernel's result, followed through the program. The buffer contents at the boundaries between the host
  stretches and the three launches are a fold (`W0` … `W6`); read where the program reads them, they are: after the first
  stretch the degree factors and the first round of message passing on the input features; after each launch the
  specification's layer of what the stretch before it prepared (the launch's whole-array reading, with the reshaped
  column and row read back as vectors and the bf16 rounding of the weights the identity); after each later stretch the
  next round of message passing on the launch's result. A buffer no stretch or launch writes keeps its contents. At the
  return the result buffer holds the specification of the nine arguments.
-/
import proofs.«149280_j56581899158114_1_alg».proof.Proof.Region0
import proofs.«149280_j56581899158114_1_alg».proof.Proof.Region1
import proofs.«149280_j56581899158114_1_alg».proof.Proof.Region2
import proofs.«149280_j56581899158114_1_alg».proof.Proof.Stretch0
import proofs.«149280_j56581899158114_1_alg».proof.Proof.Stretch1
import proofs.«149280_j56581899158114_1_alg».proof.Proof.Stretch2
import proofs.«149280_j56581899158114_1_alg».proof.Proof.Net

set_option maxRecDepth 16384

noncomputable section

namespace Cert.KernelIdeal.NetValue

open Idealize.ShloMosaic Idealize.ShloMosaic.TcCoe Idealize.SL.Sem
open Cert.KernelIdeal Cert.KernelIdeal.Gen Cert.Chain Cert.Layer

/-- A launch's hidden layer on the operands as the host prepared them — the in-degree factor reshaped to a column, the
    weights rounded to bf16, the bias reshaped to a row — is the specification's hidden layer. -/
theorem hidden_eq (A : FVec Ideal S50000x128 .f32) (s : FVec Ideal S50000 .f32) (w : FVec Ideal S128x128 .f32) (b : FVec Ideal S128 .f32) :
    denseRelu (M := 50000) (K := 128) (N := 128) A (colVec (shapeCast S50000x1 s shapeCasts_S50000_S50000x1))
      (truncf (F := Ideal) .bf16 w bitsLt_bf16_f32 : FVec Ideal S128x128 .bf16) (rowVec (shapeCast S1x128 b shapeCasts_S128_S1x128))
      = Cert.Net.hidden A s w b := by
  rw [colVec_shapeCast, rowVec_shapeCast]; rfl

/-- The same for the output layer. -/
theorem out_eq (A : FVec Ideal S50000x128 .f32) (s : FVec Ideal S50000 .f32) (w : FVec Ideal S128x16 .f32) (b : FVec Ideal S16 .f32) :
    denseLin (M := 50000) (K := 128) (N := 16) A (colVec (shapeCast S50000x1 s shapeCasts_S50000_S50000x1))
      (truncf (F := Ideal) .bf16 w bitsLt_bf16_f32 : FVec Ideal S128x16 .bf16) (rowVec (shapeCast S1x16 b shapeCasts_S16_S1x16))
      = Cert.Net.out A s w b := by
  rw [colVec_shapeCast, rowVec_shapeCast]; rfl

variable (m : (ℓ : Loc nD τ sig) → Buf (Elt Ideal) ℓ) (ρ : Dev nD → PrngReg) (c : Dev nD)

/-! ## After the first stretch -/

theorem b1_v9 : W1 m ρ c (Proc.devRef .tc main_v9) = (degNorm (m ((c.tc : Thread nD τ).loc main_arg1))) := Stretch0.v9 (W0 m ρ c)
theorem b1_v12 : W1 m ρ c (Proc.devRef .tc main_v12) = (degNorm (m ((c.tc : Thread nD τ).loc main_arg2))) := Stretch0.v12 (W0 m ρ c)
theorem b1_v25 : W1 m ρ c (Proc.devRef .tc main_v25) = (aggregate (m ((c.tc : Thread nD τ).loc main_arg0)) (degNorm (m ((c.tc : Thread nD τ).loc main_arg1))) (m ((c.tc : Thread nD τ).loc main_arg1)) (m ((c.tc : Thread nD τ).loc main_arg2))) := Stretch0.v25 (W0 m ρ c)
theorem b1_v26 : W1 m ρ c (Proc.devRef .tc main_v26) = (truncf (F := Ideal) .bf16 ((m ((c.tc : Thread nD τ).loc main_arg3)) : FVec Ideal S128x128 .f32) bitsLt_bf16_f32 : FVec Ideal S128x128 .bf16) := Stretch0.v26 (W0 m ρ c)
theorem b1_v27 : W1 m ρ c (Proc.devRef .tc main_v27) = shapeCast S1x128 (m ((c.tc : Thread nD τ).loc main_arg4)) shapeCasts_S128_S1x128 := Stretch0.v27 (W0 m ρ c)
theorem b1_v28 : W1 m ρ c (Proc.devRef .tc main_v28) = shapeCast S50000x1 (degNorm (m ((c.tc : Thread nD τ).loc main_arg2))) shapeCasts_S50000_S50000x1 := Stretch0.v28 (W0 m ρ c)
theorem b1_arg1 : W1 m ρ c (Proc.devRef .tc main_arg1) = (m ((c.tc : Thread nD τ).loc main_arg1)) := Stretch0.keep_arg1 (W0 m ρ c)
theorem b1_arg2 : W1 m ρ c (Proc.devRef .tc main_arg2) = (m ((c.tc : Thread nD τ).loc main_arg2)) := Stretch0.keep_arg2 (W0 m ρ c)
theorem b1_arg5 : W1 m ρ c (Proc.devRef .tc main_arg5) = (m ((c.tc : Thread nD τ).loc main_arg5)) := Stretch0.keep_arg5 (W0 m ρ c)
theorem b1_arg6 : W1 m ρ c (Proc.devRef .tc main_arg6) = (m ((c.tc : Thread nD τ).loc main_arg6)) := Stretch0.keep_arg6 (W0 m ρ c)
theorem b1_arg7 : W1 m ρ c (Proc.devRef .tc main_arg7) = (m ((c.tc : Thread nD τ).loc main_arg7)) := Stretch0.keep_arg7 (W0 m ρ c)
theorem b1_arg8 : W1 m ρ c (Proc.devRef .tc main_arg8) = (m ((c.tc : Thread nD τ).loc main_arg8)) := Stretch0.keep_arg8 (W0 m ρ c)

/-! ## After the first launch -/

theorem b2_v29 : W2 m ρ c (Proc.devRef .tc main_v29) = (Cert.Net.hidden (aggregate (m ((c.tc : Thread nD τ).loc main_arg0)) (degNorm (m ((c.tc : Thread nD τ).loc main_arg1))) (m ((c.tc : Thread nD τ).loc main_arg1)) (m ((c.tc : Thread nD τ).loc main_arg2))) (degNorm (m ((c.tc : Thread nD τ).loc main_arg2))) (m ((c.tc : Thread nD τ).loc main_arg3)) (m ((c.tc : Thread nD τ).loc main_arg4))) := by
  refine (W2_arr m ρ c 4).trans ?_
  rw [Region0.final (V1 m ρ) c]
  show denseRelu (W1 m ρ c (Proc.devRef .tc main_v25)) (colVec (W1 m ρ c (Proc.devRef .tc main_v28))) (W1 m ρ c (Proc.devRef .tc main_v26)) (rowVec (W1 m ρ c (Proc.devRef .tc main_v27))) = _
  rw [b1_v25, b1_v28, b1_v26, b1_v27]
  exact hidden_eq _ _ _ _
theorem b2_v9 : W2 m ρ c (Proc.devRef .tc main_v9) = (degNorm (m ((c.tc : Thread nD τ).loc main_arg1))) := (W2_of_ne m ρ c main_v9 (by decide)).trans (b1_v9 m ρ c)
theorem b2_v12 : W2 m ρ c (Proc.devRef .tc main_v12) = (degNorm (m ((c.tc : Thread nD τ).loc main_arg2))) := (W2_of_ne m ρ c main_v12 (by decide)).trans (b1_v12 m ρ c)
theorem b2_arg1 : W2 m ρ c (Proc.devRef .tc main_arg1) = (m ((c.tc : Thread nD τ).loc main_arg1)) := (W2_of_ne m ρ c main_arg1 (by decide)).trans (b1_arg1 m ρ c)
theorem b2_arg2 : W2 m ρ c (Proc.devRef .tc main_arg2) = (m ((c.tc : Thread nD τ).loc main_arg2)) := (W2_of_ne m ρ c main_arg2 (by decide)).trans (b1_arg2 m ρ c)
theorem b2_arg5 : W2 m ρ c (Proc.devRef .tc main_arg5) = (m ((c.tc : Thread nD τ).loc main_arg5)) := (W2_of_ne m ρ c main_arg5 (by decide)).trans (b1_arg5 m ρ c)
theorem b2_arg6 : W2 m ρ c (Proc.devRef .tc main_arg6) = (m ((c.tc : Thread nD τ).loc main_arg6)) := (W2_of_ne m ρ c main_arg6 (by decide)).trans (b1_arg6 m ρ c)
theorem b2_arg7 : W2 m ρ c (Proc.devRef .tc main_arg7) = (m ((c.tc : Thread nD τ).loc main_arg7)) := (W2_of_ne m ρ c main_arg7 (by decide)).trans (b1_arg7 m ρ c)
theorem b2_arg8 : W2 m ρ c (Proc.devRef .tc main_arg8) = (m ((c.tc : Thread nD τ).loc main_arg8)) := (W2_of_ne m ρ c main_arg8 (by decide)).trans (b1_arg8 m ρ c)

/-! ## After the second stretch -/

theorem b3_v42 : W3 m ρ c (Proc.devRef .tc main_v42) = (aggregate (Cert.Net.hidden (aggregate (m ((c.tc : Thread nD τ).loc main_arg0)) (degNorm (m ((c.tc : Thread nD τ).loc main_arg1))) (m ((c.tc : Thread nD τ).loc main_arg1)) (m ((c.tc : Thread nD τ).loc main_arg2))) (degNorm (m ((c.tc : Thread nD τ).loc main_arg2))) (m ((c.tc : Thread nD τ).loc main_arg3)) (m ((c.tc : Thread nD τ).loc main_arg4))) (degNorm (m ((c.tc : Thread nD τ).loc main_arg1))) (m ((c.tc : Thread nD τ).loc main_arg1)) (m ((c.tc : Thread nD τ).loc main_arg2))) := by
  refine (Stretch1.v42 (W2 m ρ c)).trans ?_
  rw [b2_v29, b2_v9, b2_arg1, b2_arg2]
theorem b3_v43 : W3 m ρ c (Proc.devRef .tc main_v43) = (truncf (F := Ideal) .bf16 ((m ((c.tc : Thread nD τ).loc main_arg5)) : FVec Ideal S128x128 .f32) bitsLt_bf16_f32 : FVec Ideal S128x128 .bf16) := by
  refine (Stretch1.v43 (W2 m ρ c)).trans ?_
  rw [b2_arg5]
theorem b3_v44 : W3 m ρ c (Proc.devRef .tc main_v44) = shapeCast S1x128 (m ((c.tc : Thread nD τ).loc main_arg6)) shapeCasts_S128_S1x128 := by
  refine (Stretch1.v44 (W2 m ρ c)).trans ?_
  rw [b2_arg6]
theorem b3_v45 : W3 m ρ c (Proc.devRef .tc main_v45) = shapeCast S50000x1 (degNorm (m ((c.tc : Thread nD τ).loc main_arg2))) shapeCasts_S50000_S50000x1 := by
  refine (Stretch1.v45 (W2 m ρ c)).trans ?_
  rw [b2_v12]
theorem b3_v9 : W3 m ρ c (Proc.devRef .tc main_v9) = (degNorm (m ((c.tc : Thread nD τ).loc main_arg1))) := (Stretch1.keep_v9 (W2 m ρ c)).trans (b2_v9 m ρ c)
theorem b3_v12 : W3 m ρ c (Proc.devRef .tc main_v12) = (degNorm (m ((c.tc : Thread nD τ).loc main_arg2))) := (Stretch1.keep_v12 (W2 m ρ c)).trans (b2_v12 m ρ c)
theorem b3_arg1 : W3 m ρ c (Proc.devRef .tc main_arg1) = (m ((c.tc : Thread nD τ).loc main_arg1)) := (Stretch1.keep_arg1 (W2 m ρ c)).trans (b2_arg1 m ρ c)
theorem b3_arg2 : W3 m ρ c (Proc.devRef .tc main_arg2) = (m ((c.tc : Thread nD τ).loc main_arg2)) := (Stretch1.keep_arg2 (W2 m ρ c)).trans (b2_arg2 m ρ c)
theorem b3_arg7 : W3 m ρ c (Proc.devRef .tc main_arg7) = (m ((c.tc : Thread nD τ).loc main_arg7)) := (Stretch1.keep_arg7 (W2 m ρ c)).trans (b2_arg7 m ρ c)
theorem b3_arg8 : W3 m ρ c (Proc.devRef .tc main_arg8) = (m ((c.tc : Thread nD τ).loc main_arg8)) := (Stretch1.keep_arg8 (W2 m ρ c)).trans (b2_arg8 m ρ c)

/-! ## After the second launch -/

theorem b4_v46 : W4 m ρ c (Proc.devRef .tc main_v46) = (Cert.Net.hidden (aggregate (Cert.Net.hidden (aggregate (m ((c.tc : Thread nD τ).loc main_arg0)) (degNorm (m ((c.tc : Thread nD τ).loc main_arg1))) (m ((c.tc : Thread nD τ).loc main_arg1)) (m ((c.tc : Thread nD τ).loc main_arg2))) (degNorm (m ((c.tc : Thread nD τ).loc main_arg2))) (m ((c.tc : Thread nD τ).loc main_arg3)) (m ((c.tc : Thread nD τ).loc main_arg4))) (degNorm (m ((c.tc : Thread nD τ).loc main_arg1))) (m ((c.tc : Thread nD τ).loc main_arg1)) (m ((c.tc : Thread nD τ).loc main_arg2))) (degNorm (m ((c.tc : Thread nD τ).loc main_arg2))) (m ((c.tc : Thread nD τ).loc main_arg5)) (m ((c.tc : Thread nD τ).loc main_arg6))) := by
  refine (W4_arr m ρ c 4).trans ?_
  rw [Region1.final (V3 m ρ) c]
  show denseRelu (W3 m ρ c (Proc.devRef .tc main_v42)) (colVec (W3 m ρ c (Proc.devRef .tc main_v45))) (W3 m ρ c (Proc.devRef .tc main_v43)) (rowVec (W3 m ρ c (Proc.devRef .tc main_v44))) = _
  rw [b3_v42, b3_v45, b3_v43, b3_v44]
  exact hidden_eq _ _ _ _
theorem b4_v9 : W4 m ρ c (Proc.devRef .tc main_v9) = (degNorm (m ((c.tc : Thread nD τ).loc main_arg1))) := (W4_of_ne m ρ c main_v9 (by decide)).trans (b3_v9 m ρ c)
theorem b4_v12 : W4 m ρ c (Proc.devRef .tc main_v12) = (degNorm (m ((c.tc : Thread nD τ).loc main_arg2))) := (W4_of_ne m ρ c main_v12 (by decide)).trans (b3_v12 m ρ c)
theorem b4_arg1 : W4 m ρ c (Proc.devRef .tc main_arg1) = (m ((c.tc : Thread nD τ).loc main_arg1)) := (W4_of_ne m ρ c main_arg1 (by decide)).trans (b3_arg1 m ρ c)
theorem b4_arg2 : W4 m ρ c (Proc.devRef .tc main_arg2) = (m ((c.tc : Thread nD τ).loc main_arg2)) := (W4_of_ne m ρ c main_arg2 (by decide)).trans (b3_arg2 m ρ c)
theorem b4_arg7 : W4 m ρ c (Proc.devRef .tc main_arg7) = (m ((c.tc : Thread nD τ).loc main_arg7)) := (W4_of_ne m ρ c main_arg7 (by decide)).trans (b3_arg7 m ρ c)
theorem b4_arg8 : W4 m ρ c (Proc.devRef .tc main_arg8) = (m ((c.tc : Thread nD τ).loc main_arg8)) := (W4_of_ne m ρ c main_arg8 (by decide)).trans (b3_arg8 m ρ c)

/-! ## After the third stretch -/

theorem b5_v59 : W5 m ρ c (Proc.devRef .tc main_v59) = (aggregate (Cert.Net.hidden (aggregate (Cert.Net.hidden (aggregate (m ((c.tc : Thread nD τ).loc main_arg0)) (degNorm (m ((c.tc : Thread nD τ).loc main_arg1))) (m ((c.tc : Thread nD τ).loc main_arg1)) (m ((c.tc : Thread nD τ).loc main_arg2))) (degNorm (m ((c.tc : Thread nD τ).loc main_arg2))) (m ((c.tc : Thread nD τ).loc main_arg3)) (m ((c.tc : Thread nD τ).loc main_arg4))) (degNorm (m ((c.tc : Thread nD τ).loc main_arg1))) (m ((c.tc : Thread nD τ).loc main_arg1)) (m ((c.tc : Thread nD τ).loc main_arg2))) (degNorm (m ((c.tc : Thread nD τ).loc main_arg2))) (m ((c.tc : Thread nD τ).loc main_arg5)) (m ((c.tc : Thread nD τ).loc main_arg6))) (degNorm (m ((c.tc : Thread nD τ).loc main_arg1))) (m ((c.tc : Thread nD τ).loc main_arg1)) (m ((c.tc : Thread nD τ).loc main_arg2))) := by
  refine (Stretch2.v59 (W4 m ρ c)).trans ?_
  rw [b4_v46, b4_v9, b4_arg1, b4_arg2]
theorem b5_v60 : W5 m ρ c (Proc.devRef .tc main_v60) = (truncf (F := Ideal) .bf16 ((m ((c.tc : Thread nD τ).loc main_arg7)) : FVec Ideal S128x16 .f32) bitsLt_bf16_f32 : FVec Ideal S128x16 .bf16) := by
  refine (Stretch2.v60 (W4 m ρ c)).trans ?_
  rw [b4_arg7]
theorem b5_v61 : W5 m ρ c (Proc.devRef .tc main_v61) = shapeCast S1x16 (m ((c.tc : Thread nD τ).loc main_arg8)) shapeCasts_S16_S1x16 := by
  refine (Stretch2.v61 (W4 m ρ c)).trans ?_
  rw [b4_arg8]
theorem b5_v62 : W5 m ρ c (Proc.devRef .tc main_v62) = shapeCast S50000x1 (degNorm (m ((c.tc : Thread nD τ).loc main_arg2))) shapeCasts_S50000_S50000x1 := by
  refine (Stretch2.v62 (W4 m ρ c)).trans ?_
  rw [b4_v12]

/-! ## At the return -/

/-- THE KERNEL'S RESULT is the specification of its arguments. -/
theorem result : W6 m ρ c (Proc.devRef .tc main_v63)
    = Cert.Net.spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W6_arr m ρ c 4).trans ?_
  rw [Region2.final (V5 m ρ) c]
  show denseLin (W5 m ρ c (Proc.devRef .tc main_v59)) (colVec (W5 m ρ c (Proc.devRef .tc main_v62))) (W5 m ρ c (Proc.devRef .tc main_v60)) (rowVec (W5 m ρ c (Proc.devRef .tc main_v61))) = _
  rw [b5_v59, b5_v62, b5_v60, b5_v61]
  exact out_eq _ _ _ _

end Cert.KernelIdeal.NetValue

end
-- ==== Proof.RefValue.lean ====
/-
  The reference's result is the network over the host's dense layers, and each host layer is, entry by entry, the dense
  layer of the specification.
-/
import proofs.«149280_j56581899158114_1_alg».proof.Proof.Gen.ReferenceIdeal.Run
import proofs.«149280_j56581899158114_1_alg».proof.Proof.Chain
import proofs.«149280_j56581899158114_1_alg».proof.Proof.Layer
import proofs.«149280_j56581899158114_1_alg».proof.Proof.Net

noncomputable section

namespace Cert.RefValue

open Idealize.ShloMosaic Idealize.ShloMosaic.TcCoe Idealize.SL.Sem
open Cert.ReferenceIdeal Cert.ReferenceIdeal.Gen Cert.ReferenceIdeal.Facts₀ Cert.Chain Cert.Layer

/-- The hidden layer in the host's operations is the specification's hidden layer. -/
theorem hostHidden_eq (agg : FA S50000x128) (nIn : FA S50000) (w : FA S128x128) (b : FA S128) :
    hostHidden agg nIn w b = Cert.Net.hidden agg nIn w b := by
  funext j
  exact host_relu_apply dot_S50000x128_S128x128_S50000x128_1_0_0_1_n_n rfl agg nIn w b _ _ _ _ _ j

/-- The output layer in the host's operations is the specification's affine layer. -/
theorem hostOut_eq (agg : FA S50000x128) (nIn : FA S50000) (w : FA S128x16) (b : FA S16) :
    hostOut agg nIn w b = Cert.Net.out agg nIn w b := by
  funext j
  exact host_lin_apply dot_S50000x128_S128x16_S50000x16_1_0_0_1_n_n rfl agg nIn w b _ _ _ _ j

set_option maxRecDepth 8192 in
/-- The reference run's composed term is the network over the host's layers: the same operations, grouped. -/
theorem res_eq (m : (ℓ : Loc nD τ sig) → Buf (Elt Ideal) ℓ) (c : Dev nD) :
    Cert.ReferenceIdeal.Value.res_main_v74 (F := Ideal) m c
      = network hostHidden hostHidden hostOut
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v74 network hostHidden hostOut aggregate degNorm
  rfl

/-- THE REFERENCE'S RESULT is the specification of its arguments. -/
theorem res_spec (m : (ℓ : Loc nD τ sig) → Buf (Elt Ideal) ℓ) (c : Dev nD) :
    Cert.ReferenceIdeal.Value.res_main_v74 (F := Ideal) m c
      = Cert.Net.spec
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  have h1 : hostHidden = Cert.Net.hidden := by funext A s w b; exact hostHidden_eq A s w b
  have h3 : hostOut = Cert.Net.out := by funext A s w b; exact hostOut_eq A s w b
  rw [res_eq, h1, h3]
  rfl

end Cert.RefValue

end
-- ==== Proof.lean ====
/-
  Three launches of a dense-layer kernel inside a three-layer graph convolution, against the plain jnp network.
  Both programs compute the degree factors deg⁻¹ᐟ² and three rounds of message passing (scale, gather along the edges,
  add at the destinations) with the same host operations; they differ only in the dense layer after each round,
      max ((A · s) w + b, 0)   (no clip in the last),
  which the kernel computes ten blocks of 5000 rows at a time on the matrix unit, with the scaled rows and the weights
  rounded to bf16, and the reference with one host matrix product. At the exact values a rounding is the identity and
  both matrix products are the sum over the contraction index, and an entry of the layer reads only its own row, so the
  blocks the kernel writes back are the blocks of the whole-array layer: both results are ONE function of the nine
  arguments (`Cert.Net.spec`). No law that needs finiteness is used: the precondition is never opened.
  The frames of the two kernel programs are the generated ones; the reference's frame is its generated run with the
  result dropped; the idealization rewrote nothing, so `preserves` is trivial.
-/
import proofs.«149280_j56581899158114_1_alg».proof.Defs
import proofs.«149280_j56581899158114_1_alg».proof.Proof.Gen.Kernel
import proofs.«149280_j56581899158114_1_alg».proof.Proof.Gen.Kernel.Skeleton
import proofs.«149280_j56581899158114_1_alg».proof.Proof.Gen.Kernel.Launch
import proofs.«149280_j56581899158114_1_alg».proof.Proof.Gen.Kernel.Points
import proofs.«149280_j56581899158114_1_alg».proof.Proof.Gen.Kernel.Frame
import proofs.«149280_j56581899158114_1_alg».proof.Proof.Gen.KernelIdeal
import proofs.«149280_j56581899158114_1_alg».proof.Proof.Gen.KernelIdeal.Skeleton
import proofs.«149280_j56581899158114_1_alg».proof.Proof.Gen.KernelIdeal.Launch
import proofs.«149280_j56581899158114_1_alg».proof.Proof.Gen.KernelIdeal.Points
import proofs.«149280_j56581899158114_1_alg».proof.Proof.Gen.KernelIdeal.Frame
import proofs.«149280_j56581899158114_1_alg».proof.Proof.Gen.ReferenceIdeal
import proofs.«149280_j56581899158114_1_alg».proof.Proof.Gen.Pre_finite_inputs
import proofs.«149280_j56581899158114_1_alg».proof.Proof.Gen.ReferenceIdeal.Run
import proofs.«149280_j56581899158114_1_alg».proof.Proof.KernelRun
import proofs.«149280_j56581899158114_1_alg».proof.Proof.KernelValue
import proofs.«149280_j56581899158114_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments: the generated frame. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference runs and leaves its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact values both programs end with the specification of their (agreeing) arguments in the result buffer. -/
theorem algebraic : Cert.algebraic_KernelIdeal_ReferenceIdeal := by
  intro m ρ m' ρ' _ hagree
  refine ⟨fun c => Cert.Net.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.NetValue.result m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.RefValue.res_spec, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
